-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S5000x128 : Shape := ⟨2, ![5000, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_

variable [Facts]

def fn {F : FTy → Type} [FloatOps F] (main_arg0 : FVec F S10000x10000 .f32) (main_arg1 : FVec F S5000x128 .f32) (main_arg2 : FVec F S5000x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  main_v13
-- ==== Kernel.lean ====
abbrev S10000x10000 : Shape := ⟨2, ![10000, 10000]⟩
abbrev S5000x128 : Shape := ⟨2, ![5000, 128]⟩
abbrev S200x10000 : Shape := ⟨2, ![200, 10000]⟩
abbrev S200x128 : Shape := ⟨2, ![200, 128]⟩
abbrev S10000x128 : Shape := ⟨2, ![10000, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S5000x128, .f32⟩
  | .hbm, ⟨2, _⟩ => ⟨S5000x128, .f32⟩
  | .hbm, ⟨3, _⟩ => ⟨S5000x128, .f32⟩
  | .local _ .vmem, ⟨0, _⟩ => ⟨S200x10000, .f32⟩
  | .local _ .vmem, ⟨1, _⟩ => ⟨S200x10000, .f32⟩
  | .local _ .vmem, ⟨2, _⟩ => ⟨S5000x128, .f32⟩
  | .local _ .vmem, ⟨3, _⟩ => ⟨S5000x128, .f32⟩
  | .local _ .vmem, ⟨4, _⟩ => ⟨S200x128, .f32⟩
  | .local _ .vmem, ⟨5, _⟩ => ⟨S200x128, .f32⟩
  | .local _ .vmem, ⟨6, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  inb_S10000x128_S5000x128_0_0 : ∀ a, (![0, 0] : Fin 2 → Nat) a + S5000x128.size a ≤ S10000x128.size a
  shapeCasts_S5000x128_S5000x128 : S5000x128.ShapeCasts S5000x128
  inb_S10000x128_S5000x128_5000_0 : ∀ a, (![5000, 0] : Fin 2 → Nat) a + S5000x128.size a ≤ S10000x128.size a
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S200x128_S200x128_0_0 : ∀ a, (![0, 0] : Fin 2 → Nat) a + S200x128.size a ≤ S200x128.size a
  h_S200x128 : 0 < S200x128.numel
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S5000x128.size a
  hwx0_1 : ∀ i : grid0.Coords, EltTy.bits .f32 = 32 ∨ (Rect.block (s := S5000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S5000x128.size a
  hwx0_2 : ∀ i : grid0.Coords, EltTy.bits .f32 = 32 ∨ (Rect.block (s := S5000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S5000x128.size a
  hwx0_3 : ∀ i : grid0.Coords, EltTy.bits .f32 = 32 ∨ (Rect.block (s := S5000x128) S200x128.size (cc0_transform_3 i) (hinb0_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S5000x128 : Shape := ⟨2, ![5000, 128]⟩
abbrev S10000x128 : Shape := ⟨2, ![10000, 128]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S5000x128, .f32⟩
  | .hbm, ⟨2, _⟩ => ⟨S5000x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .i1⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .i1⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .i1⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S5000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call3_cst : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call5_cst : Ref sig .tc := ⟨.hbm, 34, rfl⟩
abbrev main_call5_v0 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call7_cst : Ref sig .tc := ⟨.hbm, 45, rfl⟩
abbrev main_call7_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  concatenates_S5000x128_S5000x128_S10000x128_d0 : Shape.Concatenates [S5000x128, S5000x128] S10000x128 0
  bcast_S_S10000x128 : S_.BroadcastsInDim S10000x128 (![] : Fin 0 → Fin S10000x128.rank)
  slices_S10000x128_S5000x128_0_0 : S10000x128.Slices ![0, 0] S5000x128
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GraphLayer.lean ====
/-
  One graph-convolution layer over two embedding tables, as a function of the argument arrays.

  The tables `a`, `b` : [5000, 128] are stacked into one [10000, 128] table (rows 0 … 4999 from `a`, rows 5000 … 9999
  from `b`); entry (r, q) of the layer is four times the positive part of row `r` of the adjacency matrix against column
  `q` of the stacked table, for the first 5000 rows `r`.

  Two laws on the extended reals join the two programs that compute it. A leaky rectifier of positive slope followed by a
  rectifier is the rectifier: for `x ≤ 0` the slope times `x` is still `≤ 0` (at `⊥` too), so both sides are `0`. And a
  value `r ≥ 0` added to itself four times is `4 · r` (at `⊤` both sides are `⊤`). Neither needs a finite input: sums and
  products appear in the same arrangement on both sides.
-/
import Idealize.ShloMosaic.PureOps.Ideal
import Idealize.ShloMosaic.PureOps.Ideal.Laws
import Idealize.ShloMosaic.Lib.ValueIdx

noncomputable section

namespace Cert.GraphLayer

open Idealize.ShloMosaic Idealize.ShloMosaic.ValueIdx

/-- The adjacency matrix's shape, a table's, and the stacked table's. -/
abbrev Adj : Shape := ⟨2, ![10000, 10000]⟩
abbrev Tbl : Shape := ⟨2, ![5000, 128]⟩
abbrev Stk : Shape := ⟨2, ![10000, 128]⟩

/-- The two tables stacked along the rows: row `k < 5000` is row `k` of `a`, row `k ≥ 5000` is row `k - 5000` of `b`. -/
def stack {α : Type} (a b : Tbl.Idx → α) : Stk.Idx → α := fun y =>
  if h : (y 0).val < 5000 then a (ix2 ⟨(y 0).val, h⟩ (y 1))
  else b (ix2 ⟨(y 0).val - 5000, by have h0 : (y 0).val < 10000 := (y 0).isLt; omega⟩ (y 1))

theorem stack_lo {α : Type} (a b : Tbl.Idx → α) (k : Fin 10000) (q : Fin 128) (h : k.val < 5000) :
    stack a b (ix2 k q) = a (ix2 ⟨k.val, h⟩ q) := by
  unfold stack; rw [dif_pos (show ((ix2 k q : Stk.Idx) 0).val < 5000 from h)]

theorem stack_hi {α : Type} (a b : Tbl.Idx → α) (k : Fin 10000) (q : Fin 128) (h : 5000 ≤ k.val) :
    stack a b (ix2 k q) = b (ix2 ⟨k.val - 5000, by have := k.isLt; omega⟩ q) := by
  unfold stack; rw [dif_neg (show ¬((ix2 k q : Stk.Idx) 0).val < 5000 from Nat.not_lt.2 h)]

/-- Row `r` of the adjacency matrix against column `q` of a [10000, 128] table. -/
def rowDot (adj : Adj.Idx → EReal) (e : Stk.Idx → EReal) (r : Fin 10000) (q : Fin 128) : EReal :=
  ∑ k : Fin 10000, adj (ix2 r k) * e (ix2 k q)

/-- A row of the first half, as a row of the whole matrix. -/
abbrev upper (r : Fin 5000) : Fin 10000 := ⟨r.val, by have := r.isLt; omega⟩

/-- THE LAYER: at (r, q), four times the positive part of row `r` against column `q` of the stacked table. -/
def layer (adj : Adj.Idx → EReal) (a b : Tbl.Idx → EReal) : Tbl.Idx → EReal := fun i =>
  ((4 : ℝ) : EReal) * max (rowDot adj (stack a b) (upper (i 0)) (i 1)) 0

/-! ## The two literals -/

/-- The pattern of `4.0` denotes the real 4. -/
theorem ofBits_four : Ideal.ofBits .f32 0x40800000#32 = ((4 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-! ## The two laws -/

/-- Half of a nonpositive extended real is nonpositive (half of `⊥` is `⊥`). -/
theorem half_mul_nonpos {x : EReal} (hx : x ≤ 0) : ((1 / 2 : ℝ) : EReal) * x ≤ 0 := by
  induction x using EReal.rec with
  | bot => rw [EReal.coe_mul_bot_of_pos (by norm_num)]; exact bot_le
  | top => exact absurd hx (by simp)
  | coe r =>
    rw [← EReal.coe_mul, ← EReal.coe_zero, EReal.coe_le_coe_iff]
    have hr : r ≤ 0 := by rwa [← EReal.coe_zero, EReal.coe_le_coe_iff] at hx
    nlinarith

/-- A leaky rectifier of slope 1/2, then a rectifier, is the rectifier. -/
theorem relu_leaky (x : EReal) : max (if 0 < x then x else ((1 / 2 : ℝ) : EReal) * x) 0 = max x 0 := by
  by_cases h : 0 < x
  · rw [if_pos h]
  · rw [if_neg h, max_eq_right (not_lt.mp h), max_eq_right (half_mul_nonpos (not_lt.mp h))]

/-- A nonnegative extended real added to itself four times is four times it. -/
theorem four_copies {r : EReal} (hr : 0 ≤ r) : r + r + r + r = ((4 : ℝ) : EReal) * r := by
  induction r using EReal.rec with
  | bot => exact absurd hr (by simp)
  | top => rw [EReal.coe_mul_top_of_pos (by norm_num)]; rfl
  | coe x => rw [← EReal.coe_add, ← EReal.coe_add, ← EReal.coe_add, ← EReal.coe_mul]; congr 1; ring

/-- The comparison `x > 0` choosing between two values, as a conditional. -/
theorem select_pos (x a b : EReal) : Scalar.select (Ideal.cmp .ogt x 0) a b = if 0 < x then a else b := by
  unfold Scalar.select Ideal.cmp
  by_cases h : 0 < x <;> simp [h]

/-- So four copies of (a leaky rectifier, then a rectifier) of `x` sum to four times the positive part of `x`. -/
theorem four_relu_leaky (x : EReal) :
    max (Scalar.select (Ideal.cmp .ogt x 0) x (((1 / 2 : ℝ) : EReal) * x)) 0
      + max (Scalar.select (Ideal.cmp .ogt x 0) x (((1 / 2 : ℝ) : EReal) * x)) 0
      + max (Scalar.select (Ideal.cmp .ogt x 0) x (((1 / 2 : ℝ) : EReal) * x)) 0
      + max (Scalar.select (Ideal.cmp .ogt x 0) x (((1 / 2 : ℝ) : EReal) * x)) 0
      = ((4 : ℝ) : EReal) * max x 0 := by
  rw [select_pos, relu_leaky]
  exact four_copies (le_max_right _ _)

end Cert.GraphLayer

end
-- ==== Proof.ScratchTables.lean ====
/-
  What each of the kernel body's two cases leaves behind, as values.

  At the grid's first point the body copies the first table into rows 0 … 4999 of its scratch and the second into rows
  5000 … 9999: two stores that tile the scratch, so the scratch then holds the two tables stacked. It then multiplies its
  block of the adjacency matrix with the scratch it has just filled. At every later point it stores nothing into the
  scratch and multiplies its block with the scratch as the point before left it. In both cases the output block is one
  store of the body's arithmetic (the matrix product, its positive part, times four) of the adjacency block and the
  scratch's contents.
-/
import proofs.«116442_g85667417686486_cont_sun_m_847_13_alg».proof.Proof.Gen.KernelIdeal.Frame
import proofs.«116442_g85667417686486_cont_sun_m_847_13_alg».proof.Proof.GraphLayer
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Cases

open Cert.KernelIdeal Cert.KernelIdeal.Gen Cert.GraphLayer

variable {F : FTy → Type} [FloatOps F]

theorem hz : (![0, 0] : Fin 2 → Nat) = fun _ => 0 := funext fun a => by fin_cases a <;> rfl

/-- The scratch's two stores: the lower half of the rows, then the upper half. -/
abbrev lowerRows : Rect S10000x128 := Rect.unit ![0, 0] S5000x128.size inb_S10000x128_S5000x128_0_0
abbrev upperRows : Rect S10000x128 := Rect.unit ![5000, 0] S5000x128.size inb_S10000x128_S5000x128_5000_0

/-- Every row of the scratch is in one of the two halves. -/
theorem halves_cover (w1 w2 : Vec F S5000x128 .f32) (y : S10000x128.Idx) :
    ∃ p ∈ ([⟨upperRows, w2⟩, ⟨lowerRows, w1⟩] : List (View.Piece (Elt F) S10000x128 .f32)), y ∈ p.1.set := by
  have h0 : (y 0).val < 10000 := (y 0).isLt
  have h1 : (y 1).val < 128 := (y 1).isLt
  by_cases h : (y 0).val < 5000
  · refine ⟨⟨lowerRows, w1⟩, by simp, ?_⟩
    show y ∈ (Rect.unit (s := S10000x128) ![0, 0] S5000x128.size inb_S10000x128_S5000x128_0_0).set
    rw [Rect.mem_set_unit]
    intro a
    match a with
    | ⟨0, _⟩ => show 0 ≤ (y 0).val ∧ (y 0).val < 0 + 5000; omega
    | ⟨1, _⟩ => show 0 ≤ (y 1).val ∧ (y 1).val < 0 + 128; omega
  · refine ⟨⟨upperRows, w2⟩, by simp, ?_⟩
    show y ∈ (Rect.unit (s := S10000x128) ![5000, 0] S5000x128.size inb_S10000x128_S5000x128_5000_0).set
    rw [Rect.mem_set_unit]
    intro a
    match a with
    | ⟨0, _⟩ => show 5000 ≤ (y 0).val ∧ (y 0).val < 5000 + 5000; omega
    | ⟨1, _⟩ => show 0 ≤ (y 1).val ∧ (y 1).val < 0 + 128; omega

/-- The two stores leave the two tables stacked: each store's payload is the stacked table on its half of the rows. -/
theorem canon_halves (w1 w2 : Vec F S5000x128 .f32) :
    View.canon ([⟨upperRows, w2⟩, ⟨lowerRows, w1⟩] : List (View.Piece (Elt F) S10000x128 .f32)) = stack w1 w2 := by
  funext y
  refine View.canon_apply_of_pieces (stack w1 w2) _ ?_ y (halves_cover w1 w2 y)
  intro p hp
  rcases List.mem_cons.mp hp with rfl | hp
  · intro x
    have e0 : (upperRows.emb x 0).val = 5000 + 1 * (x 0).val := rfl
    have e1 : (upperRows.emb x 1).val = 0 + 1 * (x 1).val := rfl
    show w2 x = stack w1 w2 (upperRows.emb x)
    unfold stack
    rw [dif_neg (by rw [e0]; omega)]
    refine congrArg w2 (funext fun a => Fin.ext ?_)
    match a with
    | ⟨0, _⟩ => show (x 0).val = (upperRows.emb x 0).val - 5000; rw [e0]; omega
    | ⟨1, _⟩ => show (x 1).val = (upperRows.emb x 1).val; rw [e1]; omega
  · rcases List.mem_cons.mp hp with rfl | hp
    · intro x
      have hx : (x 0).val < 5000 := (x 0).isLt
      have e0 : (lowerRows.emb x 0).val = 0 + 1 * (x 0).val := rfl
      have e1 : (lowerRows.emb x 1).val = 0 + 1 * (x 1).val := rfl
      show w1 x = stack w1 w2 (lowerRows.emb x)
      unfold stack
      rw [dif_pos (by rw [e0]; omega)]
      refine congrArg w1 (funext fun a => Fin.ext ?_)
      match a with
      | ⟨0, _⟩ => show (x 0).val = (lowerRows.emb x 0).val; rw [e0]; omega
      | ⟨1, _⟩ => show (x 1).val = (lowerRows.emb x 1).val; rw [e1]; omega
    · exact absurd hp List.not_mem_nil

/-- AT THE FIRST POINT the scratch ends holding the two tables stacked. -/
theorem scratch_first (c : Dev nD) (i : grid0.Coords) (a1 : Memref sig .tc .vmem S200x10000 .f32) (h1 : a1.IsWhole)
    (a2 : Memref sig .tc .vmem S5000x128 .f32) (h2 : a2.IsWhole) (a3 : Memref sig .tc .vmem S5000x128 .f32) (h3 : a3.IsWhole)
    (a4 : Memref sig .tc .vmem S200x128 .f32) (h4 : a4.IsWhole) (a5 : Memref sig .tc .vmem S10000x128 .f32) (h5 : a5.IsWhole) (hc : cond0_0 i)
    (x0 : Vec F S200x10000 .f32) (x1 x2 : Vec F S5000x128 .f32) :
    sout0_A_0 c i a1 h1 a2 h2 a3 h3 a4 h4 a5 h5 hc x0 x1 x2 = stack x1 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  unfold k0_pay1 k0_pay2
  simp only [View.readAt_eq_ld, h2.read_unread, h3.read_unread, View.ld_unit_zero (S := S5000x128) hz, shapeCast_self]
  exact canon_halves x1 x2

/-- AT THE FIRST POINT the output block is the body's arithmetic of the adjacency block and the stacked tables: the
    product's right operand is a load of the scratch the two stores have just filled. -/
theorem out_first (c : Dev nD) (i : grid0.Coords) (a1 : Memref sig .tc .vmem S200x10000 .f32) (h1 : a1.IsWhole)
    (a2 : Memref sig .tc .vmem S5000x128 .f32) (h2 : a2.IsWhole) (a3 : Memref sig .tc .vmem S5000x128 .f32) (h3 : a3.IsWhole)
    (a4 : Memref sig .tc .vmem S200x128 .f32) (h4 : a4.IsWhole) (a5 : Memref sig .tc .vmem S10000x128 .f32) (h5 : a5.IsWhole) (hc : cond0_0 i)
    (x0 : Vec F S200x10000 .f32) (x1 x2 : Vec F S5000x128 .f32) :
    out0_A_3 c i a1 h1 a2 h2 a3 h3 a4 h4 a5 h5 hc x0 x1 x2 = k0_pay3 x0 (stack x1 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  unfold k0_pay1 k0_pay2
  simp only [View.readAt_eq_ld, h1.read_unread, h2.read_unread, h3.read_unread, View.ld_unit_zero (S := S5000x128) hz,
    View.ld_unit_zero (S := S200x10000) hz, shapeCast_self]
  rw [View.readCov_eq_canon_ld _ _ _ (halves_cover x1 x2), canon_halves, View.ld_unit_zero (S := S10000x128) hz]

/-- AT A LATER POINT the output block is the same arithmetic of the adjacency block and the scratch as the point
    before left it. -/
theorem out_later (c : Dev nD) (i : grid0.Coords) (a1 : Memref sig .tc .vmem S200x10000 .f32) (h1 : a1.IsWhole)
    (a2 : Memref sig .tc .vmem S5000x128 .f32) (h2 : a2.IsWhole) (a3 : Memref sig .tc .vmem S5000x128 .f32) (h3 : a3.IsWhole)
    (a4 : Memref sig .tc .vmem S200x128 .f32) (h4 : a4.IsWhole) (a5 : Memref sig .tc .vmem S10000x128 .f32) (h5 : a5.IsWhole) (hc : ¬cond0_0 i)
    (x0 : Vec F S200x10000 .f32) (x1 x2 : Vec F S5000x128 .f32) (xs : Vec F S10000x128 .f32) :
    out0_B_3 c i a1 h1 a2 h2 a3 h3 a4 h4 a5 h5 hc x0 x1 x2 xs = k0_pay3 x0 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz]
  simp only [View.readAt_eq_ld, h1.read_unread, h5.read_unread, View.ld_unit_zero (S := S200x10000) hz,
    View.ld_unit_zero (S := S10000x128) hz]

end Cert.KernelIdeal.Cases

end
-- ==== Proof.CarriedTables.lean ====
/-
  The scratch carried across the grid holds the stacked tables after every point, so every point writes back the
  body's arithmetic of its adjacency block and the stacked tables.

  The first point fills the scratch with the two tables' blocks stacked; every later point leaves the scratch as it found
  it. By induction on the point the scratch after point `n` is that stacked table, for every `n`. The two tables' windows
  never move (block (0, 0), the whole array), and the adjacency window's block at point `t` is rows 200·t … 200·t + 199:
  an entry of a block is the array's entry at block index × block size + the coordinate inside the block, axis by axis.
-/
import proofs.«116442_g85667417686486_cont_sun_m_847_13_alg».proof.Proof.ScratchTables
import proofs.«116442_g85667417686486_cont_sun_m_847_13_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Carried

open Cert.KernelIdeal Cert.KernelIdeal.Gen Cert.GraphLayer Cert.KernelIdeal.Cases

variable {F : FTy → Type} [FloatOps F]
variable (m : (ℓ : Loc nD τ sig) → Buf (Elt F) ℓ)

/-- The grid's first point. -/
abbrev first : Fin cfg0.N := ⟨0, by rw [show cfg0.N = 25 from N_0]; decide⟩

/-- The two tables' blocks at the first point, stacked: what the first point stores into the scratch. -/
abbrev tables (c : Dev nD) : Vec F S10000x128 .f32 :=
  stack (iblk m c 1 first : Vec F S5000x128 .f32) (iblk m c 2 first : Vec F S5000x128 .f32)

/-- THE SCRATCH AFTER POINT `n` is the stacked tables: stored at the first point, untouched afterwards. -/
theorem scratch_after (c : Dev nD) : ∀ (n : ℕ) (hn : n < cfg0.N), (outsAt0 m c n hn).2 = tables m c
  | 0, hn => by
    rw [outsAt0_A m c ⟨0, hn⟩ (Nat.zero_mod 25)]
    dsimp only
    exact scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod 25))
      (iblk m c 0 ⟨0, hn⟩) (iblk m c 1 ⟨0, hn⟩) (iblk m c 2 ⟨0, hn⟩)
  | n + 1, hn => by
    have hN : cfg0.N = 25 := N_0
    have hB : ¬(⟨n + 1, hn⟩ : Fin cfg0.N).val % 25 = 0 := by dsimp only; omega
    rw [outsAt0_B m c ⟨n + 1, hn⟩ hB]
    show (outsAt0 m c n _).2 = _
    exact scratch_after c n _

/-- WHAT POINT `t` WRITES BACK: the body's arithmetic of its adjacency block and the stacked tables. -/
theorem flushed_block (c : Dev nD) (t : Fin cfg0.N) :
    (dats m 0 c).flushed 3 t = (cfg0.win 3).cut (grid0.coords t) (k0_pay3 (iblk m c 0 t) (tables m c)) := by
  have hN : t.val < 25 := lt_of_lt_of_eq t.isLt (show cfg0.N = 25 from N_0)
  by_cases h0 : t.val % 25 = 0
  · obtain rfl : t = first := Fin.ext (by show t.val = 0; omega)
    exact (Value.flushed3_A m c first h0).trans (congrArg ((cfg0.win 3).cut (grid0.coords first))
      (out_first c (grid0.coords first) (ms0_0 first) (hs0_0 first) (ms0_1 first) (hs0_1 first) (ms0_2 first) (hs0_2 first) (ms0_3 first) (hs0_3 first) scM0_0 (Memref.isWhole_whole _) ((hcond0_0 first).mpr h0)
        (iblk m c 0 first) (iblk m c 1 first) (iblk m c 2 first)))
  · exact (Value.flushed3_B m c t h0).trans (congrArg ((cfg0.win 3).cut (grid0.coords t))
      ((out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
        (iblk m c 0 t) (iblk m c 1 t) (iblk m c 2 t)
        (outsAt0 m c (t.val - 1) (Nat.lt_of_le_of_lt (Nat.sub_le _ _) t.isLt)).2).trans
        (congrArg (k0_pay3 (iblk m c 0 t)) (scratch_after m c (t.val - 1) (Nat.lt_of_le_of_lt (Nat.sub_le _ _) t.isLt)))))

/-! ## The windows' blocks read off the argument arrays -/

/-- The printed index maps, decided over the 25 points: the adjacency window and the output window are on row block `t`,
    the two tables' windows stay on block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The adjacency block at point `t`, entry (p, k): the matrix's entry (200·t + p, k). -/
theorem adj_block_at (c : Dev nD) (t : Fin cfg0.N) (p : Fin 200) (k : Fin 10000) (h : 200 * t.val + p.val < 10000) :
    (iblk m c 0 t : Vec F S200x10000 .f32) (ix2 p k)
      = (m ((c : Thread nD τ).loc main_arg0) : S10000x10000.Idx → Elt F .f32) (ix2 ⟨200 * t.val + p.val, h⟩ k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 200 + 1 * p.val = 200 * t.val + p.val; omega
  | ⟨1, _⟩ => show win0_0.index t (1 : Fin 2) * 10000 + 1 * k.val = k.val; omega

/-- The first table's block, at any point, is the first table. -/
theorem table1_block (c : Dev nD) (t : Fin cfg0.N) :
    (iblk m c 1 t : Vec F S5000x128 .f32) = (m ((c : Thread nD τ).loc main_arg1) : S5000x128.Idx → Elt F .f32) := by
  obtain ⟨-, -, e0, e1, -⟩ := idx_facts t
  funext j
  unfold iblk
  rw [View.read_apply]
  show V m c main_arg1 _ = m (c.tc.loc main_arg1) _
  unfold V
  congr 1
  funext a
  apply Fin.ext
  match a with
  | ⟨0, _⟩ => show win0_1.index t (0 : Fin 2) * 5000 + 1 * (j 0).val = (j 0).val; omega
  | ⟨1, _⟩ => show win0_1.index t (1 : Fin 2) * 128 + 1 * (j 1).val = (j 1).val; omega

/-- The second table's block, at any point, is the second table. -/
theorem table2_block (c : Dev nD) (t : Fin cfg0.N) :
    (iblk m c 2 t : Vec F S5000x128 .f32) = (m ((c : Thread nD τ).loc main_arg2) : S5000x128.Idx → Elt F .f32) := by
  obtain ⟨-, -, -, -, e0, e1, -⟩ := idx_facts t
  funext j
  unfold iblk
  rw [View.read_apply]
  show V m c main_arg2 _ = m (c.tc.loc main_arg2) _
  unfold V
  congr 1
  funext a
  apply Fin.ext
  match a with
  | ⟨0, _⟩ => show win0_2.index t (0 : Fin 2) * 5000 + 1 * (j 0).val = (j 0).val; omega
  | ⟨1, _⟩ => show win0_2.index t (1 : Fin 2) * 128 + 1 * (j 1).val = (j 1).val; omega

/-- So the stacked tables are the two argument tables stacked. -/
theorem tables_eq (c : Dev nD) :
    tables m c = stack (m ((c : Thread nD τ).loc main_arg1) : S5000x128.Idx → Elt F .f32)
      (m ((c : Thread nD τ).loc main_arg2) : S5000x128.Idx → Elt F .f32) := by
  show stack (iblk m c 1 first : Vec F S5000x128 .f32) (iblk m c 2 first : Vec F S5000x128 .f32) = _
  rw [table1_block m c first, table2_block m c first]

end Cert.KernelIdeal.Carried

end
-- ==== Proof.LayerBlock.lean ====
/-
  The body's arithmetic read at one entry of its block.

  The body multiplies a [200, 10000] block of the adjacency matrix with a [10000, 128] table into a zero accumulator,
  takes the positive part, and multiplies by four. On the extended reals the product's entry (p, q) is the sum over `k`
  of the block's (p, k) times the table's (k, q): the one contracted axis is re-indexed by `k : Fin 10000`, and the
  product's operand indices at (p, q) and `k` are (p, k) and (k, q), coordinate by coordinate.
-/
import proofs.«116442_g85667417686486_cont_sun_m_847_13_alg».proof.Proof.Gen.KernelIdeal.Skeleton
import proofs.«116442_g85667417686486_cont_sun_m_847_13_alg».proof.Proof.GraphLayer
import Idealize.ShloMosaic.Lib.ValueIdx
import Idealize.ShloMosaic.PureOps.Ideal.Laws

noncomputable section

open Idealize.ShloMosaic Idealize.ShloMosaic.ValueIdx

namespace Cert.KernelIdeal.Block

open Cert.KernelIdeal Cert.KernelIdeal.Gen Cert.GraphLayer

/-! ## The product's operand indices, coordinate by coordinate -/

theorem lhs_row (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_contr (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_contr (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_col (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into the zero accumulator, at (p, q): the sum over `k` of block (p, k) times table (k, q). -/
theorem product_at (x0 : FVec Ideal S200x10000 .f32) (e : FVec Ideal S10000x128 .f32) (p : Fin 200) (q : Fin 128) :
    FloatOps.matmul dot_S200x10000_S10000x128_S200x128_1_0_0_1_n_n none x0 e (constant (F := Ideal) S200x128 .f32 0x00000000#32) (ix2 p q)
      = ∑ k : Fin 10000, x0 (ix2 p k) * e (ix2 k q) := by
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_row _ _
    | ⟨1, _⟩ => exact (lhs_contr _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_contr _ _).trans hk
    | ⟨1, _⟩ => exact rhs_col _ _)
  rw [el, er]

/-- THE BODY'S ARITHMETIC at (p, q): four times the positive part of the block's row `p` against the table's column `q`. -/
theorem payload_at (x0 : Vec Ideal S200x10000 .f32) (e : Vec Ideal S10000x128 .f32) (p : Fin 200) (q : Fin 128) :
    k0_pay3 (F := Ideal) x0 e (ix2 p q) = ((4 : ℝ) : EReal) * max (∑ k : Fin 10000, x0 (ix2 p k) * e (ix2 k q)) 0 := by
  unfold k0_pay3
  show Ideal.ofBits .f32 0x40800000#32
      * max (FloatOps.matmul dot_S200x10000_S10000x128_S200x128_1_0_0_1_n_n none x0 e (constant (F := Ideal) S200x128 .f32 0x00000000#32) (ix2 p q))
          (Ideal.ofBits .f32 0x00000000#32) = _
  rw [product_at, ofBits_four, Ideal.ofBits_zero_f32]

end Cert.KernelIdeal.Block

end
-- ==== Proof.RowBlocks.lean ====
/-
  The kernel's result array is the layer of its three argument arrays.

  Point `t` writes back rows 200·t … 200·t + 199 of the result. Its block's entry (p, q) is the body's arithmetic of the
  adjacency block and the stacked tables at (p, q): four times the positive part of the sum over `k` of the adjacency
  block's (p, k) times the stacked table's (k, q). The adjacency block's (p, k) is the matrix's (200·t + p, k), so this is
  the layer at (200·t + p, q): the block is the layer read through the window. Row `r` of the result is in the block of
  point `r / 200`, so the 25 blocks cover the array and the array ends holding the layer.
-/
import proofs.«116442_g85667417686486_cont_sun_m_847_13_alg».proof.Proof.CarriedTables
import proofs.«116442_g85667417686486_cont_sun_m_847_13_alg».proof.Proof.LayerBlock

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.GraphLayer Cert.KernelIdeal.Carried

variable (m : (ℓ : Loc nD τ sig) → Buf (Elt Ideal) ℓ) (ρ : Dev nD → PrngReg)

/-- The layer of the three argument arrays as the kernel finds them. -/
abbrev result (c : Dev nD) : Buf (Elt Ideal) ((c : Thread nD τ).loc main_v0) :=
  layer (m ((c : Thread nD τ).loc main_arg0)) (m ((c : Thread nD τ).loc main_arg1)) (m ((c : Thread nD τ).loc main_arg2))

/-- WHAT POINT `t` WRITES BACK is block `t` of the layer. -/
theorem flushed_eq (c : Dev nD) (t : Fin cfg0.N) :
    (dats m 0 c).flushed 3 t = ((cfg0.win 3).blk t).view.read (Elt Ideal) (result m c) := by
  rw [flushed_block m c t]
  obtain ⟨-, -, -, -, -, -, e0, e1⟩ := idx_facts t
  have hN : t.val < 25 := lt_of_lt_of_eq t.isLt (show cfg0.N = 25 from N_0)
  funext j
  obtain ⟨p, q, rfl⟩ : ∃ (p : Fin 200) (q : Fin 128), j = ix2 p q := ⟨j 0, j 1, eq_ix2 j⟩
  have hp : p.val < 200 := p.isLt
  have hr : 200 * t.val + p.val < 5000 := by omega
  have hE : ((cfg0.win 3).blk t).view.emb (ix2 p q) = (ix2 ⟨200 * t.val + p.val, hr⟩ q : S5000x128.Idx) := by
    funext a
    apply Fin.ext
    match a with
    | ⟨0, _⟩ => show win0_3.index t (0 : Fin 2) * 200 + 1 * p.val = 200 * t.val + p.val; omega
    | ⟨1, _⟩ => show win0_3.index t (1 : Fin 2) * 128 + 1 * q.val = q.val; omega
  show k0_pay3 (F := Ideal) (iblk m c 0 t) (tables m c) (ix2 p q) = result m c (((cfg0.win 3).blk t).view.emb (ix2 p q))
  rw [hE]
  refine (Block.payload_at (iblk m c 0 t) (tables m c) p q).trans ?_
  show _ = layer (m ((c : Thread nD τ).loc main_arg0)) (m ((c : Thread nD τ).loc main_arg1)) (m ((c : Thread nD τ).loc main_arg2))
    (ix2 ⟨200 * t.val + p.val, hr⟩ q)
  unfold layer rowDot
  refine congrArg (fun s => ((4 : ℝ) : EReal) * max s 0) (Finset.sum_congr rfl fun k _ => ?_)
  rw [tables_eq m c, adj_block_at m c t p k (by omega)]
  try rfl

/-- An index of the result is in point `t`'s block iff each coordinate is in the block's range on its axis. -/
theorem mem_blk (t : Fin cfg0.N) (i : S5000x128.Idx) :
    i ∈ ((cfg0.win 3).blk t).view.set ↔ ∀ a : Fin 2, win0_3.index t a * S200x128.size a ≤ (i a).val
      ∧ (i a).val < win0_3.index t a * S200x128.size a + S200x128.size a := by
  show i ∈ ((View.whole main_v0).slice (win0_3.rect t)).set ↔ _
  rw [View.set_slice_whole, Rect.mem_set_unit]
  exact Iff.rfl

/-- Row `r` of the result is in the block of point `r / 200`: the 25 blocks cover the array. -/
theorem cover (i : S5000x128.Idx) :
    ∃ t : Fin cfg0.N, (cfg0.win 3).flush t = true ∧ i ∈ ((cfg0.win 3).blk t).view.set := by
  have h0 : (i 0).val < 5000 := (i 0).isLt
  have h1 : (i 1).val < 128 := (i 1).isLt
  have hN : cfg0.N = 25 := N_0
  obtain ⟨t, ht⟩ : ∃ t : Fin cfg0.N, t.val = (i 0).val / 200 := ⟨⟨(i 0).val / 200, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 128 ≤ (i 1).val ∧ (i 1).val < win0_3.index t (1 : Fin 2) * 128 + 128
    omega

/-- THE RESULT ARRAY after the run is the layer. -/
theorem final (c : Dev nD) : (dats m 0 c).arrAt 3 cfg0.N = result m c :=
  (dats m 0 c).arrAt_eq_of_cover 3 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Rows

end
-- ==== Proof.ReferenceLayer.lean ====
/-
  The reference program computes the layer.

  Its concatenation of the two tables along the rows is the stacked table; each of its four matrix products of the
  adjacency matrix with that table is, at (r, q), row `r` against column `q`; each product goes through a leaky rectifier
  of slope 1/2 (a comparison with zero choosing between the product and half of it) and then a rectifier; the four
  results are added and the first 5000 rows kept. At (r, q) with `r < 5000` that is four copies of one value, which
  sum to four times the positive part of the row-column product: the layer.
-/
import proofs.«116442_g85667417686486_cont_sun_m_847_13_alg».proof.Proof.Gen.ReferenceIdeal.Read
import proofs.«116442_g85667417686486_cont_sun_m_847_13_alg».proof.Proof.GraphLayer

noncomputable section

namespace Cert.ReferenceIdeal.Layer

open Cert.ReferenceIdeal Cert.ReferenceIdeal.Gen Cert.ReferenceIdeal.Read Cert.GraphLayer Idealize.ShloMosaic Idealize.ShloMosaic.ValueIdx

/-- The concatenation of the two tables along axis 0 is the stacked table: a row below 5000 falls in the first piece,
    a row from 5000 on in the second, 5000 rows down. -/
theorem concat_eq_stack (x1 x2 : S5000x128.Idx → EReal) : val_main_v0 (F := Ideal) x1 x2 = stack x1 x2 := by
  funext y
  unfold val_main_v0 stack
  have hy : (y 0).val < 10000 := (y 0).isLt
  by_cases h : (y 0).val < 5000
  · rw [dif_pos h]
    exact concatenate_pair_apply_left (0 : Fin S10000x128.rank) x1 x2 concatenates_S5000x128_S5000x128_S10000x128_d0 y rfl
      (ix2 ⟨(y 0).val, h⟩ (y 1)) (fun b => match b with
        | ⟨0, _⟩ => rfl
        | ⟨1, _⟩ => rfl)
  · rw [dif_neg h]
    exact concatenate_pair_apply_right (0 : Fin S10000x128.rank) x1 x2 concatenates_S5000x128_S5000x128_S10000x128_d0 y rfl rfl
      (ix2 ⟨(y 0).val - 5000, by omega⟩ (y 1)) (fun b hb => match b, hb with
        | ⟨0, _⟩, hb => absurd rfl hb
        | ⟨1, _⟩, _ => rfl)
      (by show (y 0).val - 5000 + 5000 = (y 0).val; omega)

/-! ## Each matrix product is the row-column sum over the stacked table -/

theorem dot1 (x0 : S10000x10000.Idx → EReal) (x1 x2 : S5000x128.Idx → EReal) (j : S10000x128.Idx) :
    val_main_v1 (F := Ideal) x0 x1 x2 j = rowDot x0 (stack x1 x2) (j 0) (j 1) := by
  rw [val_main_v1_apply, concat_eq_stack]
  unfold rowDot
  refine Finset.sum_congr rfl fun k _ => ?_
  congr 2
  · funext a; match a with
    | ⟨0, _⟩ => rfl
    | ⟨1, _⟩ => rfl
  · funext a; match a with
    | ⟨0, _⟩ => rfl
    | ⟨1, _⟩ => rfl

theorem dot2 (x0 : S10000x10000.Idx → EReal) (x1 x2 : S5000x128.Idx → EReal) (j : S10000x128.Idx) :
    val_main_v8 (F := Ideal) x0 x1 x2 j = rowDot x0 (stack x1 x2) (j 0) (j 1) := by
  rw [val_main_v8_apply, concat_eq_stack]
  unfold rowDot
  refine Finset.sum_congr rfl fun k _ => ?_
  congr 2
  · funext a; match a with
    | ⟨0, _⟩ => rfl
    | ⟨1, _⟩ => rfl
  · funext a; match a with
    | ⟨0, _⟩ => rfl
    | ⟨1, _⟩ => rfl

theorem dot3 (x0 : S10000x10000.Idx → EReal) (x1 x2 : S5000x128.Idx → EReal) (j : S10000x128.Idx) :
    val_main_v15 (F := Ideal) x0 x1 x2 j = rowDot x0 (stack x1 x2) (j 0) (j 1) := by
  rw [val_main_v15_apply, concat_eq_stack]
  unfold rowDot
  refine Finset.sum_congr rfl fun k _ => ?_
  congr 2
  · funext a; match a with
    | ⟨0, _⟩ => rfl
    | ⟨1, _⟩ => rfl
  · funext a; match a with
    | ⟨0, _⟩ => rfl
    | ⟨1, _⟩ => rfl

theorem dot4 (x0 : S10000x10000.Idx → EReal) (x1 x2 : S5000x128.Idx → EReal) (j : S10000x128.Idx) :
    val_main_v22 (F := Ideal) x0 x1 x2 j = rowDot x0 (stack x1 x2) (j 0) (j 1) := by
  rw [val_main_v22_apply, concat_eq_stack]
  unfold rowDot
  refine Finset.sum_congr rfl fun k _ => ?_
  congr 2
  · funext a; match a with
    | ⟨0, _⟩ => rfl
    | ⟨1, _⟩ => rfl
  · funext a; match a with
    | ⟨0, _⟩ => rfl
    | ⟨1, _⟩ => rfl

/-! ## Each rectified copy -/

/-- A leaky rectifier of slope 1/2 (the comparison with zero choosing), then a rectifier. -/
def rectified (d : EReal) : EReal := max (Scalar.select (Ideal.cmp .ogt d 0) d (((1 / 2 : ℝ) : EReal) * d)) 0

theorem relu1 (x0 : S10000x10000.Idx → EReal) (x1 x2 : S5000x128.Idx → EReal) (j : S10000x128.Idx) :
    val_main_v7 (F := Ideal) x0 x1 x2 j = rectified (rowDot x0 (stack x1 x2) (j 0) (j 1)) := by
  rw [val_main_v7_apply, val_main_v6_apply, val_main_v3_apply, val_main_v5_apply, val_main_v2_apply, val_main_v4_apply, val_main_call1_v0_apply,
    val_main_cst_apply, val_main_cst_0_apply, val_main_call1_cst_apply, dot1]
  simp only [rectified, Ideal.maximumf_def, Ideal.mulf_def, Ideal.ofBits_def, Ideal.cmpf_def, Ideal.ofBits_zero_f32, ofBits_half]

theorem relu2 (x0 : S10000x10000.Idx → EReal) (x1 x2 : S5000x128.Idx → EReal) (j : S10000x128.Idx) :
    val_main_v14 (F := Ideal) x0 x1 x2 j = rectified (rowDot x0 (stack x1 x2) (j 0) (j 1)) := by
  rw [val_main_v14_apply, val_main_v13_apply, val_main_v10_apply, val_main_v12_apply, val_main_v9_apply, val_main_v11_apply, val_main_call3_v0_apply,
    val_main_cst_1_apply, val_main_cst_2_apply, val_main_call3_cst_apply, dot2]
  simp only [rectified, Ideal.maximumf_def, Ideal.mulf_def, Ideal.ofBits_def, Ideal.cmpf_def, Ideal.ofBits_zero_f32, ofBits_half]

theorem relu3 (x0 : S10000x10000.Idx → EReal) (x1 x2 : S5000x128.Idx → EReal) (j : S10000x128.Idx) :
    val_main_v21 (F := Ideal) x0 x1 x2 j = rectified (rowDot x0 (stack x1 x2) (j 0) (j 1)) := by
  rw [val_main_v21_apply, val_main_v20_apply, val_main_v17_apply, val_main_v19_apply, val_main_v16_apply, val_main_v18_apply, val_main_call5_v0_apply,
    val_main_cst_3_apply, val_main_cst_4_apply, val_main_call5_cst_apply, dot3]
  simp only [rectified, Ideal.maximumf_def, Ideal.mulf_def, Ideal.ofBits_def, Ideal.cmpf_def, Ideal.ofBits_zero_f32, ofBits_half]

theorem relu4 (x0 : S10000x10000.Idx → EReal) (x1 x2 : S5000x128.Idx → EReal) (j : S10000x128.Idx) :
    val_main_v28 (F := Ideal) x0 x1 x2 j = rectified (rowDot x0 (stack x1 x2) (j 0) (j 1)) := by
  rw [val_main_v28_apply, val_main_v27_apply, val_main_v24_apply, val_main_v26_apply, val_main_v23_apply, val_main_v25_apply, val_main_call7_v0_apply,
    val_main_cst_5_apply, val_main_cst_6_apply, val_main_call7_cst_apply, dot4]
  simp only [rectified, Ideal.maximumf_def, Ideal.mulf_def, Ideal.ofBits_def, Ideal.cmpf_def, Ideal.ofBits_zero_f32, ofBits_half]

/-! ## The result -/

/-- The reference's result is the layer of its three arguments. -/
theorem result_eq_layer (x0 : S10000x10000.Idx → EReal) (x1 x2 : S5000x128.Idx → EReal) :
    val_main_v32 (F := Ideal) x0 x1 x2 = layer x0 x1 x2 := by
  funext i
  rw [val_main_v32_apply, val_main_v31_apply, val_main_v30_apply, val_main_v29_apply, relu1, relu2, relu3, relu4]
  simp only [Ideal.addf_def, rectified]
  exact four_relu_leaky _

end Cert.ReferenceIdeal.Layer

end
-- ==== Proof.lean ====
/- One graph-convolution layer, computed two ways, is one function on the extended reals.

   The kernel tiles the first 5000 rows of the adjacency matrix into 25 row blocks of 200. At the first grid point it
   stacks the two embedding tables into a scratch that it keeps for all later points; at every point it multiplies its row
   block with the stacked table, takes the positive part and multiplies by four. So its result at (r, q) is four times the
   positive part of row `r` of the adjacency matrix against column `q` of the stacked table (Proof/RowBlocks.lean, over
   Proof/ScratchTables.lean, Proof/CarriedTables.lean and Proof/LayerBlock.lean).

   The reference multiplies the whole matrix with the concatenated tables four times over, passes each product through a
   leaky rectifier of slope 1/2 and a rectifier, adds the four results and keeps the first 5000 rows. A leaky rectifier of
   positive slope followed by a rectifier is the rectifier, and a nonnegative value added to itself four times is four
   times it; both hold at the infinities too, so no finiteness of the inputs is used (Proof/ReferenceLayer.lean, over
   Proof/GraphLayer.lean, which states the layer and the two laws).

   The idealization rewrote nothing, so the kernel's idealized text is its own text read over the extended reals. -/
import proofs.«116442_g85667417686486_cont_sun_m_847_13_alg».proof.Defs
import proofs.«116442_g85667417686486_cont_sun_m_847_13_alg».proof.Proof.Gen.Kernel
import proofs.«116442_g85667417686486_cont_sun_m_847_13_alg».proof.Proof.Gen.Kernel.Skeleton
import proofs.«116442_g85667417686486_cont_sun_m_847_13_alg».proof.Proof.Gen.Kernel.Launch
import proofs.«116442_g85667417686486_cont_sun_m_847_13_alg».proof.Proof.Gen.Kernel.Points
import proofs.«116442_g85667417686486_cont_sun_m_847_13_alg».proof.Proof.Gen.Kernel.Frame
import proofs.«116442_g85667417686486_cont_sun_m_847_13_alg».proof.Proof.Gen.KernelIdeal
import proofs.«116442_g85667417686486_cont_sun_m_847_13_alg».proof.Proof.Gen.KernelIdeal.Skeleton
import proofs.«116442_g85667417686486_cont_sun_m_847_13_alg».proof.Proof.Gen.KernelIdeal.Launch
import proofs.«116442_g85667417686486_cont_sun_m_847_13_alg».proof.Proof.Gen.KernelIdeal.Points
import proofs.«116442_g85667417686486_cont_sun_m_847_13_alg».proof.Proof.Gen.KernelIdeal.Frame
import proofs.«116442_g85667417686486_cont_sun_m_847_13_alg».proof.Proof.Gen.ReferenceIdeal
import proofs.«116442_g85667417686486_cont_sun_m_847_13_alg».proof.Proof.Gen.Pre_finite_inputs
import proofs.«116442_g85667417686486_cont_sun_m_847_13_alg».proof.Proof.Gen.KernelIdeal.Value
import proofs.«116442_g85667417686486_cont_sun_m_847_13_alg».proof.Proof.Gen.ReferenceIdeal.Run
import proofs.«116442_g85667417686486_cont_sun_m_847_13_alg».proof.Proof.Gen.ReferenceIdeal.Read
import proofs.«116442_g85667417686486_cont_sun_m_847_13_alg».proof.Proof.RowBlocks
import proofs.«116442_g85667417686486_cont_sun_m_847_13_alg».proof.Proof.ReferenceLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its text read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Over the extended reals the kernel's result array ends at the layer of its arguments, and the reference's result is
    the layer of arguments that agree with them. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Layer.result_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
